-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x1 : Shape := ⟨2, ![100000, 1]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg7 : FVec F S47 .f32) (main_v33 : IVec S_ 1) : IVec S_ 1 :=
  let main_v34 : FVec F S47 .f32 := Host.absf main_arg7
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x47 .f32) (main_arg7 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x47 .f32 := Host.absf main_arg6
  let main_cst_10 : FVec F S_ .f32 := constant S_ .f32 0x7F800000#32
  let main_v30 : FVec F S128x47 .f32 := broadcastInDim S128x47 ![] bcast_S_S128x47 main_cst_10
  let main_v31 : IVec S128x47 1 := cmpf .olt main_v29 main_v30
  let main_c_11 : IVec S_ 1 := constantI S_ 1 1#1
  let main_v32 : IVec S_ 1 := (fun x v => Host.reduce IntOp.andi x v reducesTo_S128x47_S_d0_1 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S100000x1 .f32) (main_arg2 : FVec F S256x128 .f32) (main_arg3 : FVec F S128 .f32) (main_arg4 : FVec F S128x128 .f32) (main_arg5 : FVec F S128 .f32) (main_arg6 : FVec F S128x47 .f32) (main_arg7 : FVec F S47 .f32) (main_arg8 : IVec S1600000 32) (main_arg9 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x256 : Shape := ⟨2, ![100000, 256]⟩
abbrev S100000x1 : Shape := ⟨2, ![100000, 1]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S1600000 : Shape := ⟨1, ![1600000]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x47 : Shape := ⟨2, ![100000, 47]⟩
abbrev S5000x47 : Shape := ⟨2, ![5000, 47]⟩
abbrev S1600000x47 : Shape := ⟨2, ![1600000, 47]⟩
abbrev S1x47 : Shape := ⟨2, ![1, 47]⟩

abbrev nBuf : Space → Nat
  | .hbm => 55
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S100000x1, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S1600000, .i32⟩
  | .hbm, ⟨9, _⟩ => ⟨S1600000, .i32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x47, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x47, .f32⟩
  | .hbm, ⟨50, _⟩ => ⟨S_, .f32⟩
  | .hbm, ⟨51, _⟩ => ⟨S100000x47, .f32⟩
  | .hbm, ⟨52, _⟩ => ⟨S1600000x1, .i32⟩
  | .hbm, ⟨53, _⟩ => ⟨S100000x47, .f32⟩
  | .hbm, ⟨54, _⟩ => ⟨S100000x47, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x47, .f32⟩
  | .local _ .vmem, ⟨27, _⟩ => ⟨S5000x1, .f32⟩
  | .local _ .vmem, ⟨28, _⟩ => ⟨S5000x1, .f32⟩
  | .local _ .vmem, ⟨29, _⟩ => ⟨S5000x47, .f32⟩
  | .local _ .vmem, ⟨30, _⟩ => ⟨S5000x47, .f32⟩
  | .local _ .vmem, ⟨31, _⟩ => ⟨S5000x47, .f32⟩
  | .local _ .vmem, ⟨32, _⟩ => ⟨S5000x47, .f32⟩
  | .local _ .vmem, ⟨33, _⟩ => ⟨S47, .f32⟩
  | .local _ .vmem, ⟨34, _⟩ => ⟨S5000x47, .f32⟩
  | .local _ .vmem, ⟨35, _⟩ => ⟨S5000x47, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x47 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S47 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x47 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x47_S128x47_0_0 : ∀ a, (![0, 0] : Fin 2 → Nat) a + S128x47.size a ≤ S128x47.size a
  h_S128x47 : 0 < S128x47.numel
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  bcast_S_S100000x47 : S_.BroadcastsInDim S100000x47 (![] : Fin 0 → Fin S100000x47.rank)
  shapeCasts_S5000x47_S5000x47 : S5000x47.ShapeCasts S5000x47
  inb_S47_S47_0 : ∀ a, (![0] : Fin 1 → Nat) a + S47.size a ≤ S47.size a
  h_S47 : 0 < S47.numel
  shapeCasts_S47_S1x47 : S47.ShapeCasts S1x47
  broadcasts_S1x47_S5000x47 : S1x47.Broadcasts S5000x47
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x47.size a ≤ S128x47.size a
  hwx4_1 : ∀ i : grid4.Coords, EltTy.bits .f32 = 32 ∨ (Rect.block (s := S128x47) S128x47.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x47.size a ≤ S100000x47.size a
  hwx4_3 : ∀ i : grid4.Coords, EltTy.bits .f32 = 32 ∨ (Rect.block (s := S100000x47) S5000x47.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x47.size a ≤ S100000x47.size a
  hwx5_0 : ∀ i : grid5.Coords, EltTy.bits .f32 = 32 ∨ (Rect.block (s := S100000x47) S5000x47.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S47.size a ≤ S47.size a
  hwx5_1 : ∀ i : grid5.Coords, EltTy.bits .f32 = 32 ∨ (Rect.block (s := S47) S47.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x47.size a ≤ S100000x47.size a
  hwx5_2 : ∀ i : grid5.Coords, EltTy.bits .f32 = 32 ∨ (Rect.block (s := S100000x47) S5000x47.size (cc5_transform_2 i) (hinb5_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v23) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v24) S5000x47.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v34) S5000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S47.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S5000x47.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S100000x1 : Shape := ⟨2, ![100000, 1]⟩
abbrev S256x128 : Shape := ⟨2, ![256, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x47 : Shape := ⟨2, ![100000, 47]⟩
abbrev S1600000x47 : Shape := ⟨2, ![1600000, 47]⟩
abbrev S1x47 : Shape := ⟨2, ![1, 47]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x1, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S1600000, .i32⟩
  | .hbm, ⟨9, _⟩ => ⟨S1600000, .i32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x47, .f32⟩
  | .hbm, ⟨55, _⟩ => ⟨S100000x47, .f32⟩
  | .hbm, ⟨56, _⟩ => ⟨S100000x47, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x47, .f32⟩
  | .hbm, ⟨66, _⟩ => ⟨S_, .f32⟩
  | .hbm, ⟨67, _⟩ => ⟨S100000x47, .f32⟩
  | .hbm, ⟨68, _⟩ => ⟨S1600000x1, .i32⟩
  | .hbm, ⟨69, _⟩ => ⟨S100000x47, .f32⟩
  | .hbm, ⟨70, _⟩ => ⟨S1x47, .f32⟩
  | .hbm, ⟨71, _⟩ => ⟨S100000x47, .f32⟩
  | .hbm, ⟨72, _⟩ => ⟨S100000x47, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_4 : Ref sig .tc := ⟨.hbm, 57, rfl⟩
abbrev main_v37 : Ref sig .tc := ⟨.hbm, 58, rfl⟩
abbrev main_v38 : Ref sig .tc := ⟨.hbm, 59, rfl⟩
abbrev main_c_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x47_0_1 : S100000x1.BroadcastsInDim S100000x47 (![0, 1] : Fin 2 → Fin S100000x47.rank)
  bcast_S_S100000x47 : S_.BroadcastsInDim S100000x47 (![] : Fin 0 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

class Facts : Prop extends Facts₀ where

variable [Facts]
-- ==== Proof.ResultRun.lean ====
/-
  The program's run with its result named.

  The program is six kernel launches among three stretches of host operations. Its generated frame follows the buffer
  contents from the launch through every stretch and every launch to the last boundary, `W9`, and reads the ten
  argument arrays there. The result array is one more unscoped buffer of the same last thread state, so the same run
  also ends with the result at `W9`'s contents of its buffer: this file states the run with that extra conjunct. What
  `W9` holds there, as a function of the arguments, is the business of the next file.
-/
import proofs.«133543_j3470333575495_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and the argument arrays as launched. -/
theorem run : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Result

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibLayerForms.lean ====
/-
  One layer of a graph convolution, entry by entry, over the extended reals.

  A layer takes node features `h` (one row per node), a weight matrix `W` and a per-node scale `nm` (a column), and
  forms, for node `a` and output feature `b`, the number `(∑ c, h (a, c) · W (c, b)) · nm (a, 0)`; these rows are
  then summed along the edges of the graph, and a bias row is added to every node's sum, followed (in the inner
  layers) by the maximum with zero. This file names the two entrywise pieces — the transformed and scaled feature
  (`linNorm`) and the biased, clipped sum (`biasRelu`, `biasAdd`) — and shows that a block of rows computed with a
  matrix product into a zero accumulator, and the whole array computed with a contraction and broadcasts, both read
  these numbers at every entry. A change of float format is the identity on extended reals, so the narrowing of the
  product's operands does not appear. Nothing here needs an entry to be finite: only the definitions of the operations
  at an entry are used, no law of arithmetic.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«133543_j3470333575495_1_alg».proof.Proof.LibPlainProduct
import proofs.«133543_j3470333575495_1_alg».proof.Proof.LibColumnForms
import proofs.«133543_j3470333575495_1_alg».proof.Proof.LibMergeForms
import proofs.«133543_j3470333575495_1_alg».proof.Proof.LibHostRowForms

noncomputable section

open scoped BigOperators

namespace Cert.GcnForms

open Idealize.ShloMosaic Idealize.ShloMosaic.ValueIdx

variable {m n k : Nat}

/-- Node `a`'s transformed feature `b`, scaled by the node's own factor. -/
def linNormAt (h : (⟨2, ![m, n]⟩ : Shape).Idx → EReal) (W : (⟨2, ![n, k]⟩ : Shape).Idx → EReal)
    (nm : (⟨2, ![m, 1]⟩ : Shape).Idx → EReal) (a : Fin m) (b : Fin k) : EReal :=
  (∑ c : Fin n, h (ix2 a c) * W (ix2 c b)) * nm (ix2 a (0 : Fin 1))

/-- The whole array of transformed, scaled features. -/
def linNorm (h : (⟨2, ![m, n]⟩ : Shape).Idx → EReal) (W : (⟨2, ![n, k]⟩ : Shape).Idx → EReal)
    (nm : (⟨2, ![m, 1]⟩ : Shape).Idx → EReal) : (⟨2, ![m, k]⟩ : Shape).Idx → EReal :=
  fun i => linNormAt h W nm (i 0) (i 1)

theorem linNorm_ix2 (h : (⟨2, ![m, n]⟩ : Shape).Idx → EReal) (W : (⟨2, ![n, k]⟩ : Shape).Idx → EReal)
    (nm : (⟨2, ![m, 1]⟩ : Shape).Idx → EReal) (a : Fin m) (b : Fin k) :
    linNorm h W nm (ix2 a b) = linNormAt h W nm a b := rfl

/-- A bias row added to every row, then the maximum with the zero word's value. -/
def biasRelu (x : (⟨2, ![m, k]⟩ : Shape).Idx → EReal) (b : (⟨1, ![k]⟩ : Shape).Idx → EReal) :
    (⟨2, ![m, k]⟩ : Shape).Idx → EReal :=
  fun i => max (x i + b (ix1 (i 1))) (Ideal.ofBits .f32 0x00000000#32)

/-- A bias row added to every row. -/
def biasAdd (x : (⟨2, ![m, k]⟩ : Shape).Idx → EReal) (b : (⟨1, ![k]⟩ : Shape).Idx → EReal) :
    (⟨2, ![m, k]⟩ : Shape).Idx → EReal :=
  fun i => x i + b (ix1 (i 1))

/-! ## A block of rows on the vector unit -/

/-- A block of `R` rows: the product of the rows with the weights into a zero accumulator (operands narrowed, which
    changes nothing here), times the rows' factors copied along each row, read at `(q, o)`. -/
theorem linBlock_apply {R : Nat} (D : DotDims ⟨2, ![R, n]⟩ ⟨2, ![n, k]⟩ ⟨2, ![R, k]⟩) (hD : D = DotDims.plain R n k)
    (prec : Option ContractPrecision) (h1 h2 : FTy.bits .bf16 < FTy.bits .f32)
    (hb : (⟨2, ![R, 1]⟩ : Shape).Broadcasts ⟨2, ![R, k]⟩)
    (x : FVec Ideal ⟨2, ![R, n]⟩ .f32) (W : FVec Ideal ⟨2, ![n, k]⟩ .f32) (nm : FVec Ideal ⟨2, ![R, 1]⟩ .f32)
    (q : Fin R) (o : Fin k) :
    mulf (matmul D prec (truncf .bf16 x h1) (truncf .bf16 W h2) (constant ⟨2, ![R, k]⟩ .f32 0x00000000#32))
        (broadcastTo ⟨2, ![R, k]⟩ nm hb) (ix2 q o)
      = (∑ c : Fin n, x (ix2 q c) * W (ix2 c o)) * nm (ix2 q (0 : Fin 1)) := by
  show matmul D prec (truncf .bf16 x h1) (truncf .bf16 W h2) (constant ⟨2, ![R, k]⟩ .f32 0x00000000#32) (ix2 q o)
      * broadcastTo ⟨2, ![R, k]⟩ nm hb (ix2 q o) = _
  rw [PlainProduct.matmul_of_plain D hD, Cert.ColumnForms.broadcastTo_a1_ab_apply]
  rfl

/-- A block of `R` rows plus the bias row copied to every row, clipped below at zero, read at `(q, o)`. -/
theorem biasReluBlock_apply {R : Nat} (hs : (⟨2, ![R, k]⟩ : Shape).ShapeCasts ⟨2, ![R, k]⟩)
    (h1 : (⟨1, ![k]⟩ : Shape).ShapeCasts ⟨2, ![1, k]⟩) (h2 : (⟨2, ![1, k]⟩ : Shape).Broadcasts ⟨2, ![R, k]⟩)
    (x : FVec Ideal ⟨2, ![R, k]⟩ .f32) (b : FVec Ideal ⟨1, ![k]⟩ .f32) (q : Fin R) (o : Fin k) :
    maximumf (addf (shapeCast ⟨2, ![R, k]⟩ x hs) (broadcastTo ⟨2, ![R, k]⟩ (shapeCast ⟨2, ![1, k]⟩ b h1) h2))
        (broadcast ⟨2, ![R, k]⟩ (Scalar.ofBits (F := Ideal) .f32 0x00000000#32)) (ix2 q o)
      = max (x (ix2 q o) + b (ix1 o)) (Ideal.ofBits .f32 0x00000000#32) := by
  show max (shapeCast ⟨2, ![R, k]⟩ x hs (ix2 q o)
      + broadcastTo ⟨2, ![R, k]⟩ (shapeCast ⟨2, ![1, k]⟩ b h1) h2 (ix2 q o)) _ = _
  rw [shapeCast_self, Cert.PointConv.rowBias_apply]
  rfl

/-- The same without the clipping. -/
theorem biasAddBlock_apply {R : Nat} (hs : (⟨2, ![R, k]⟩ : Shape).ShapeCasts ⟨2, ![R, k]⟩)
    (h1 : (⟨1, ![k]⟩ : Shape).ShapeCasts ⟨2, ![1, k]⟩) (h2 : (⟨2, ![1, k]⟩ : Shape).Broadcasts ⟨2, ![R, k]⟩)
    (x : FVec Ideal ⟨2, ![R, k]⟩ .f32) (b : FVec Ideal ⟨1, ![k]⟩ .f32) (q : Fin R) (o : Fin k) :
    addf (shapeCast ⟨2, ![R, k]⟩ x hs) (broadcastTo ⟨2, ![R, k]⟩ (shapeCast ⟨2, ![1, k]⟩ b h1) h2) (ix2 q o)
      = x (ix2 q o) + b (ix1 o) := by
  show shapeCast ⟨2, ![R, k]⟩ x hs (ix2 q o)
      + broadcastTo ⟨2, ![R, k]⟩ (shapeCast ⟨2, ![1, k]⟩ b h1) h2 (ix2 q o) = _
  rw [shapeCast_self, Cert.PointConv.rowBias_apply]

/-! ## The whole array on the host -/

/-- The contraction of the features with the weights, times the factors' column broadcast along the rows, is
    `linNorm`. -/
theorem linHost_eq (D : DotDims ⟨2, ![m, n]⟩ ⟨2, ![n, k]⟩ ⟨2, ![m, k]⟩) (hD : D = DotDims.plain m n k)
    (prec : Option ContractPrecision) (dims : Fin 2 → Fin 2) (h0 : dims 0 = 0)
    (hb : (⟨2, ![m, 1]⟩ : Shape).BroadcastsInDim ⟨2, ![m, k]⟩ dims)
    (h : FVec Ideal ⟨2, ![m, n]⟩ .f32) (W : FVec Ideal ⟨2, ![n, k]⟩ .f32) (nm : FVec Ideal ⟨2, ![m, 1]⟩ .f32) :
    mulf (Host.dotGeneral D prec h W) (broadcastInDim ⟨2, ![m, k]⟩ dims hb nm) = linNorm h W nm := by
  funext i
  obtain ⟨a, b, rfl⟩ : ∃ (a : Fin m) (b : Fin k), i = ix2 a b := ⟨i 0, i 1, eq_ix2 i⟩
  show Host.dotGeneral D prec h W (ix2 a b) * broadcastInDim ⟨2, ![m, k]⟩ dims hb nm (ix2 a b) = _
  rw [PlainProduct.dotGeneral_of_plain D hD, Cert.HostRowForms.bcast_a1_ab_apply nm dims h0]
  rfl

/-- The sums plus the bias vector broadcast to a row and then to every row, clipped below at zero, is `biasRelu`. -/
theorem biasReluHost_eq (d1 : Fin 1 → Fin 2) (hd1 : d1 0 = 1)
    (hb1 : (⟨1, ![k]⟩ : Shape).BroadcastsInDim ⟨2, ![1, k]⟩ d1) (d2 : Fin 2 → Fin 2) (hd2 : d2 1 = 1)
    (hb2 : (⟨2, ![1, k]⟩ : Shape).BroadcastsInDim ⟨2, ![m, k]⟩ d2) (d0 : Fin 0 → Fin 2)
    (hb0 : (⟨0, ![]⟩ : Shape).BroadcastsInDim ⟨2, ![m, k]⟩ d0)
    (x : FVec Ideal ⟨2, ![m, k]⟩ .f32) (b : FVec Ideal ⟨1, ![k]⟩ .f32) :
    maximumf (addf x (broadcastInDim ⟨2, ![m, k]⟩ d2 hb2 (broadcastInDim ⟨2, ![1, k]⟩ d1 hb1 b)))
        (broadcastInDim ⟨2, ![m, k]⟩ d0 hb0 (constant (F := Ideal) ⟨0, ![]⟩ .f32 0x00000000#32)) = biasRelu x b := by
  funext i
  obtain ⟨a, o, rfl⟩ : ∃ (a : Fin m) (o : Fin k), i = ix2 a o := ⟨i 0, i 1, eq_ix2 i⟩
  show max (x (ix2 a o) + broadcastInDim ⟨2, ![m, k]⟩ d2 hb2 (broadcastInDim ⟨2, ![1, k]⟩ d1 hb1 b) (ix2 a o)) _ = _
  rw [Cert.HostRowForms.bcast_1b_ab_apply _ d2 hd2, Cert.HostRowForms.bcast_b_1b_apply b d1 hd1]
  rfl

/-- The same without the clipping. -/
theorem biasAddHost_eq (d1 : Fin 1 → Fin 2) (hd1 : d1 0 = 1)
    (hb1 : (⟨1, ![k]⟩ : Shape).BroadcastsInDim ⟨2, ![1, k]⟩ d1) (d2 : Fin 2 → Fin 2) (hd2 : d2 1 = 1)
    (hb2 : (⟨2, ![1, k]⟩ : Shape).BroadcastsInDim ⟨2, ![m, k]⟩ d2)
    (x : FVec Ideal ⟨2, ![m, k]⟩ .f32) (b : FVec Ideal ⟨1, ![k]⟩ .f32) :
    addf x (broadcastInDim ⟨2, ![m, k]⟩ d2 hb2 (broadcastInDim ⟨2, ![1, k]⟩ d1 hb1 b)) = biasAdd x b := by
  funext i
  obtain ⟨a, o, rfl⟩ : ∃ (a : Fin m) (o : Fin k), i = ix2 a o := ⟨i 0, i 1, eq_ix2 i⟩
  show x (ix2 a o) + broadcastInDim ⟨2, ![m, k]⟩ d2 hb2 (broadcastInDim ⟨2, ![1, k]⟩ d1 hb1 b) (ix2 a o) = _
  rw [Cert.HostRowForms.bcast_1b_ab_apply _ d2 hd2, Cert.HostRowForms.bcast_b_1b_apply b d1 hd1]
  rfl

end Cert.GcnForms

end
-- ==== Proof.Lin0.lean ====
/-
  Region 0 of the program: the transformed, scaled features of all nodes, as one array.

  The region visits the 100000 nodes in 20 blocks of 5000 rows. At block `t` it reads rows `5000·t … 5000·t + 4999` of
  the features and of the factors' column, the whole weight matrix, and writes back the block's rows of
  `(features · weights) · factor`. Each written entry is the entry of `linNorm` of the three whole arrays at the same
  node and feature, because an entry of a block is the entry of the array `5000·t` rows further down; and the 20
  blocks cover every row, since row `r` lies in block `r / 5000`. So after the region the output array is `linNorm` of
  the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value at row `q`, feature `o`: the row's product with the weights' column, times the row's factor. -/
theorem pay_apply (x0 : Vec Ideal S5000x256 .f32) (x1 : Vec Ideal S256x128 .f32) (x2 : Vec Ideal S5000x1 .f32)
    (q : Fin 5000) (o : Fin 128) :
    k0_pay1 x0 x1 x2 (ix2 q o) = (∑ c : Fin 256, x0 (ix2 q c) * x1 (ix2 c o)) * x2 (ix2 q (0 : Fin 1)) := by
  unfold k0_pay1
  exact linBlock_apply _ rfl none _ _ _ x0 x1 x2 q o

/-- If the block's rows are the arrays' rows `a` (for the block's row `q`), the stored entry is the array's. -/
theorem point (A0 : S100000x256.Idx → EReal) (A1 : S256x128.Idx → EReal) (A2 : S100000x1.Idx → EReal)
    (x0 : Vec Ideal S5000x256 .f32) (x1 : Vec Ideal S256x128 .f32) (x2 : Vec Ideal S5000x1 .f32)
    (i : S100000x128.Idx) (q : Fin 5000) (o : Fin 128) (a : Fin 100000) (hi : i = ix2 a o)
    (h0 : ∀ c : Fin 256, x0 (ix2 q c) = A0 (ix2 a c))
    (h1 : ∀ c : Fin 256, x1 (ix2 c o) = A1 (ix2 c o))
    (h2 : x2 (ix2 q (0 : Fin 1)) = A2 (ix2 a (0 : Fin 1))) :
    k0_pay1 x0 x1 x2 (ix2 q o) = linNorm (m := 100000) (n := 256) (k := 128) A0 A1 A2 i := by
  subst hi
  rw [pay_apply, linNorm_ix2]
  unfold linNormAt
  rw [h2]
  exact congrArg (· * A2 (ix2 a (0 : Fin 1))) (Finset.sum_congr rfl fun c _ => by rw [h0 c, h1 c])

/-- The printed block maps over the 20 points: features, factors and output move together down the rows; the weights
    stay; nothing moves along the columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 19 :=
  (by decide +kernel : ∀ t : Fin grid0.N, _)

/-- Every one of the 20 row blocks is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of `linNorm` of the arrays as the region finds them. -/
theorem flushed_eq (c : Dev nD) (t : Fin cfg0.N) :
    (dat0 V c).flushed 3 t = ((cfg0.win 3).blk t).view.read (Elt Ideal)
      (linNorm (m := 100000) (n := 256) (k := 128) (V c main_arg0) (V c main_arg2) (V c main_arg1)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz,
    View.ld_unit_zero (S := S5000x1) hz]
  obtain ⟨e0, e1, e2, e3, e4, e5, e6, e7⟩ := idx_facts t
  funext j
  obtain ⟨q, o, rfl⟩ : ∃ (q : Fin 5000) (o : Fin 128), j = ix2 q o := ⟨j 0, j 1, eq_ix2 j⟩
  have hq : q.val < 5000 := q.isLt
  refine point (V c main_arg0) (V c main_arg2) (V c main_arg1) _ _ _ _ q o
    ⟨win0_3.index t (0 : Fin 2) * 5000 + q.val, by omega⟩ ?_ ?_ ?_ ?_
  · funext ax; apply Fin.ext
    match ax with
    | ⟨0, _⟩ => show win0_3.index t (0 : Fin 2) * 5000 + 1 * q.val = win0_3.index t (0 : Fin 2) * 5000 + q.val; omega
    | ⟨1, _⟩ => show win0_3.index t (1 : Fin 2) * 128 + 1 * o.val = o.val; omega
  · intro cc
    show V c main_arg0 (((cfg0.win 0).blk t).view.emb (ix2 q cc)) = V c main_arg0 _
    refine congrArg _ ?_
    funext ax; apply Fin.ext
    match ax with
    | ⟨0, _⟩ => show win0_0.index t (0 : Fin 2) * 5000 + 1 * q.val = win0_3.index t (0 : Fin 2) * 5000 + q.val; omega
    | ⟨1, _⟩ => show win0_0.index t (1 : Fin 2) * 256 + 1 * cc.val = cc.val; omega
  · intro cc
    show V c main_arg2 (((cfg0.win 1).blk t).view.emb (ix2 cc o)) = V c main_arg2 _
    refine congrArg _ ?_
    funext ax; apply Fin.ext
    match ax with
    | ⟨0, _⟩ => show win0_1.index t (0 : Fin 2) * 256 + 1 * cc.val = cc.val; omega
    | ⟨1, _⟩ => show win0_1.index t (1 : Fin 2) * 128 + 1 * o.val = o.val; omega
  · show V c main_arg1 (((cfg0.win 2).blk t).view.emb (ix2 q (0 : Fin 1))) = V c main_arg1 _
    refine congrArg _ ?_
    funext ax; apply Fin.ext
    match ax with
    | ⟨0, _⟩ => show win0_2.index t (0 : Fin 2) * 5000 + 1 * q.val = win0_3.index t (0 : Fin 2) * 5000 + q.val; omega
    | ⟨1, _⟩ => show win0_2.index t (1 : Fin 2) * 1 + 1 * (0 : Fin 1).val = (0 : Fin 1).val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row `r` lies in block `r / 5000`: the blocks cover the array. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the region its output array is `linNorm` of the features, weights and factors the region found. -/
theorem final (c : Dev nD) :
    (dat0 V c).arrAt 3 cfg0.N
      = linNorm (m := 100000) (n := 256) (k := 128) (V c main_arg0) (V c main_arg2) (V c main_arg1) :=
  (dat0 V c).arrAt_eq_of_cover 3 _ (fun t _ => flushed_eq V c t) cover

end Cert.KernelIdeal.Lin0

end
-- ==== Proof.Bias1.lean ====
/-
  Region 1 of the program: the bias added to every node's summed messages, clipped below at zero, as one array.

  The region visits the 100000 nodes in 20 blocks of 5000 rows. At block `t` it reads rows `5000·t … 5000·t + 4999` of
  the sums and the whole bias vector, and writes back the block's rows of `max (sum + bias) 0`. Each written entry is
  the entry of `biasRelu` of the two whole arrays at the same node and feature, because an entry of a block is the entry
  of the array `5000·t` rows further down; and the 20 blocks cover every row, since row `r` lies in block `r / 5000`.
  So after the region the output array is `biasRelu` of the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Bias1

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block's stored value at row `q`, feature `o`. -/
theorem pay_apply (x0 : Vec Ideal S5000x128 .f32) (x1 : Vec Ideal S128 .f32) (q : Fin 5000) (o : Fin 128) :
    k1_pay1 x0 x1 (ix2 q o) = max (x0 (ix2 q o) + x1 (ix1 o)) (Ideal.ofBits .f32 0x00000000#32) := by
  unfold k1_pay1
  exact biasReluBlock_apply _ _ _ x0 x1 q o

/-- If the block's row `q` is the array's row `a`, the stored entry is the array's. -/
theorem point (A0 : S100000x128.Idx → EReal) (A1 : S128.Idx → EReal)
    (x0 : Vec Ideal S5000x128 .f32) (x1 : Vec Ideal S128 .f32)
    (i : S100000x128.Idx) (q : Fin 5000) (o : Fin 128) (a : Fin 100000) (hi : i = ix2 a o)
    (h0 : x0 (ix2 q o) = A0 (ix2 a o)) (h1 : x1 (ix1 o) = A1 (ix1 o)) :
    k1_pay1 x0 x1 (ix2 q o) = biasRelu (m := 100000) (k := 128) A0 A1 i := by
  subst hi
  rw [pay_apply, h0, h1]
  rfl

/-- The printed block maps over the 20 points: sums and output move together down the rows; the bias stays; nothing
    moves along the columns. -/
theorem idx_facts : ∀ t : Fin cfg1.N,
    win1_0.index t (0 : Fin 2) = win1_2.index t (0 : Fin 2) ∧ win1_0.index t (1 : Fin 2) = 0
    ∧ win1_1.index t (0 : Fin 1) = 0
    ∧ win1_2.index t (1 : Fin 2) = 0 ∧ win1_2.index t (0 : Fin 2) ≤ 19 :=
  (by decide +kernel : ∀ t : Fin grid1.N, _)

/-- Every one of the 20 row blocks is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of `biasRelu` of the arrays as the region finds them. -/
theorem flushed_eq (c : Dev nD) (t : Fin cfg1.N) :
    (dat1 V c).flushed 2 t = ((cfg1.win 2).blk t).view.read (Elt Ideal)
      (biasRelu (m := 100000) (k := 128) (V c main_v10) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  obtain ⟨e0, e1, e2, e3, e4⟩ := idx_facts t
  funext j
  obtain ⟨q, o, rfl⟩ : ∃ (q : Fin 5000) (o : Fin 128), j = ix2 q o := ⟨j 0, j 1, eq_ix2 j⟩
  have hq : q.val < 5000 := q.isLt
  refine point (V c main_v10) (V c main_arg3) _ _ _ q o
    ⟨win1_2.index t (0 : Fin 2) * 5000 + q.val, by omega⟩ ?_ ?_ ?_
  · funext ax; apply Fin.ext
    match ax with
    | ⟨0, _⟩ => show win1_2.index t (0 : Fin 2) * 5000 + 1 * q.val = win1_2.index t (0 : Fin 2) * 5000 + q.val; omega
    | ⟨1, _⟩ => show win1_2.index t (1 : Fin 2) * 128 + 1 * o.val = o.val; omega
  · show V c main_v10 (((cfg1.win 0).blk t).view.emb (ix2 q o)) = V c main_v10 _
    refine congrArg _ ?_
    funext ax; apply Fin.ext
    match ax with
    | ⟨0, _⟩ => show win1_0.index t (0 : Fin 2) * 5000 + 1 * q.val = win1_2.index t (0 : Fin 2) * 5000 + q.val; omega
    | ⟨1, _⟩ => show win1_0.index t (1 : Fin 2) * 128 + 1 * o.val = o.val; omega
  · show V c main_arg3 (((cfg1.win 1).blk t).view.emb (ix1 o)) = V c main_arg3 _
    refine congrArg _ ?_
    funext ax; apply Fin.ext
    match ax with
    | ⟨0, _⟩ => show win1_1.index t (0 : Fin 1) * 128 + 1 * o.val = o.val; omega

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v11).slice (win1_2.rect t)).set ↔ _
  rw [View.set_slice_whole, Rect.mem_set_unit]
  exact Iff.rfl

/-- Row `r` lies in block `r / 5000`: the blocks cover the array. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the region its output array is `biasRelu` of the sums and the bias the region found. -/
theorem final (c : Dev nD) :
    (dat1 V c).arrAt 2 cfg1.N = biasRelu (m := 100000) (k := 128) (V c main_v10) (V c main_arg3) :=
  (dat1 V c).arrAt_eq_of_cover 2 _ (fun t _ => flushed_eq V c t) cover

end Cert.KernelIdeal.Bias1

end
-- ==== Proof.Lin2.lean ====
/-
  Region 2 of the program: the transformed, scaled features of all nodes, as one array.

  The region visits the 100000 nodes in 20 blocks of 5000 rows. At block `t` it reads rows `5000·t … 5000·t + 4999` of
  the features and of the factors' column, the whole weight matrix, and writes back the block's rows of
  `(features · weights) · factor`. Each written entry is the entry of `linNorm` of the three whole arrays at the same
  node and feature, because an entry of a block is the entry of the array `5000·t` rows further down; and the 20
  blocks cover every row, since row `r` lies in block `r / 5000`. So after the region the output array is `linNorm` of
  the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Lin2

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value at row `q`, feature `o`: the row's product with the weights' column, times the row's factor. -/
theorem pay_apply (x0 : Vec Ideal S5000x128 .f32) (x1 : Vec Ideal S128x128 .f32) (x2 : Vec Ideal S5000x1 .f32)
    (q : Fin 5000) (o : Fin 128) :
    k2_pay1 x0 x1 x2 (ix2 q o) = (∑ c : Fin 128, x0 (ix2 q c) * x1 (ix2 c o)) * x2 (ix2 q (0 : Fin 1)) := by
  unfold k2_pay1
  rw [shapeCast_self]
  exact linBlock_apply _ rfl none _ _ _ x0 x1 x2 q o

/-- If the block's rows are the arrays' rows `a` (for the block's row `q`), the stored entry is the array's. -/
theorem point (A0 : S100000x128.Idx → EReal) (A1 : S128x128.Idx → EReal) (A2 : S100000x1.Idx → EReal)
    (x0 : Vec Ideal S5000x128 .f32) (x1 : Vec Ideal S128x128 .f32) (x2 : Vec Ideal S5000x1 .f32)
    (i : S100000x128.Idx) (q : Fin 5000) (o : Fin 128) (a : Fin 100000) (hi : i = ix2 a o)
    (h0 : ∀ c : Fin 128, x0 (ix2 q c) = A0 (ix2 a c))
    (h1 : ∀ c : Fin 128, x1 (ix2 c o) = A1 (ix2 c o))
    (h2 : x2 (ix2 q (0 : Fin 1)) = A2 (ix2 a (0 : Fin 1))) :
    k2_pay1 x0 x1 x2 (ix2 q o) = linNorm (m := 100000) (n := 128) (k := 128) A0 A1 A2 i := by
  subst hi
  rw [pay_apply, linNorm_ix2]
  unfold linNormAt
  rw [h2]
  exact congrArg (· * A2 (ix2 a (0 : Fin 1))) (Finset.sum_congr rfl fun c _ => by rw [h0 c, h1 c])

/-- The printed block maps over the 20 points: features, factors and output move together down the rows; the weights
    stay; nothing moves along the columns. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 19 :=
  (by decide +kernel : ∀ t : Fin grid2.N, _)

/-- Every one of the 20 row blocks is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- What point `t` writes back is block `t` of `linNorm` of the arrays as the region finds them. -/
theorem flushed_eq (c : Dev nD) (t : Fin cfg2.N) :
    (dat2 V c).flushed 3 t = ((cfg2.win 3).blk t).view.read (Elt Ideal)
      (linNorm (m := 100000) (n := 128) (k := 128) (V c main_v11) (V c main_arg4) (V c main_arg1)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz,
    View.ld_unit_zero (S := S5000x1) hz]
  obtain ⟨e0, e1, e2, e3, e4, e5, e6, e7⟩ := idx_facts t
  funext j
  obtain ⟨q, o, rfl⟩ : ∃ (q : Fin 5000) (o : Fin 128), j = ix2 q o := ⟨j 0, j 1, eq_ix2 j⟩
  have hq : q.val < 5000 := q.isLt
  refine point (V c main_v11) (V c main_arg4) (V c main_arg1) _ _ _ _ q o
    ⟨win2_3.index t (0 : Fin 2) * 5000 + q.val, by omega⟩ ?_ ?_ ?_ ?_
  · funext ax; apply Fin.ext
    match ax with
    | ⟨0, _⟩ => show win2_3.index t (0 : Fin 2) * 5000 + 1 * q.val = win2_3.index t (0 : Fin 2) * 5000 + q.val; omega
    | ⟨1, _⟩ => show win2_3.index t (1 : Fin 2) * 128 + 1 * o.val = o.val; omega
  · intro cc
    show V c main_v11 (((cfg2.win 0).blk t).view.emb (ix2 q cc)) = V c main_v11 _
    refine congrArg _ ?_
    funext ax; apply Fin.ext
    match ax with
    | ⟨0, _⟩ => show win2_0.index t (0 : Fin 2) * 5000 + 1 * q.val = win2_3.index t (0 : Fin 2) * 5000 + q.val; omega
    | ⟨1, _⟩ => show win2_0.index t (1 : Fin 2) * 128 + 1 * cc.val = cc.val; omega
  · intro cc
    show V c main_arg4 (((cfg2.win 1).blk t).view.emb (ix2 cc o)) = V c main_arg4 _
    refine congrArg _ ?_
    funext ax; apply Fin.ext
    match ax with
    | ⟨0, _⟩ => show win2_1.index t (0 : Fin 2) * 128 + 1 * cc.val = cc.val; omega
    | ⟨1, _⟩ => show win2_1.index t (1 : Fin 2) * 128 + 1 * o.val = o.val; omega
  · show V c main_arg1 (((cfg2.win 2).blk t).view.emb (ix2 q (0 : Fin 1))) = V c main_arg1 _
    refine congrArg _ ?_
    funext ax; apply Fin.ext
    match ax with
    | ⟨0, _⟩ => show win2_2.index t (0 : Fin 2) * 5000 + 1 * q.val = win2_3.index t (0 : Fin 2) * 5000 + q.val; omega
    | ⟨1, _⟩ => show win2_2.index t (1 : Fin 2) * 1 + 1 * (0 : Fin 1).val = (0 : Fin 1).val; omega

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v12).slice (win2_3.rect t)).set ↔ _
  rw [View.set_slice_whole, Rect.mem_set_unit]
  exact Iff.rfl

/-- Row `r` lies in block `r / 5000`: the blocks cover the array. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- After the region its output array is `linNorm` of the features, weights and factors the region found. -/
theorem final (c : Dev nD) :
    (dat2 V c).arrAt 3 cfg2.N
      = linNorm (m := 100000) (n := 128) (k := 128) (V c main_v11) (V c main_arg4) (V c main_arg1) :=
  (dat2 V c).arrAt_eq_of_cover 3 _ (fun t _ => flushed_eq V c t) cover

end Cert.KernelIdeal.Lin2

end
-- ==== Proof.Bias3.lean ====
/-
  Region 3 of the program: the bias added to every node's summed messages, clipped below at zero, as one array.

  The region visits the 100000 nodes in 20 blocks of 5000 rows. At block `t` it reads rows `5000·t … 5000·t + 4999` of
  the sums and the whole bias vector, and writes back the block's rows of `max (sum + bias) 0`. Each written entry is
  the entry of `biasRelu` of the two whole arrays at the same node and feature, because an entry of a block is the entry
  of the array `5000·t` rows further down; and the 20 blocks cover every row, since row `r` lies in block `r / 5000`.
  So after the region the output array is `biasRelu` of the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Bias3

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block's stored value at row `q`, feature `o`. -/
theorem pay_apply (x0 : Vec Ideal S5000x128 .f32) (x1 : Vec Ideal S128 .f32) (q : Fin 5000) (o : Fin 128) :
    k3_pay1 x0 x1 (ix2 q o) = max (x0 (ix2 q o) + x1 (ix1 o)) (Ideal.ofBits .f32 0x00000000#32) := by
  unfold k3_pay1
  exact biasReluBlock_apply _ _ _ x0 x1 q o

/-- If the block's row `q` is the array's row `a`, the stored entry is the array's. -/
theorem point (A0 : S100000x128.Idx → EReal) (A1 : S128.Idx → EReal)
    (x0 : Vec Ideal S5000x128 .f32) (x1 : Vec Ideal S128 .f32)
    (i : S100000x128.Idx) (q : Fin 5000) (o : Fin 128) (a : Fin 100000) (hi : i = ix2 a o)
    (h0 : x0 (ix2 q o) = A0 (ix2 a o)) (h1 : x1 (ix1 o) = A1 (ix1 o)) :
    k3_pay1 x0 x1 (ix2 q o) = biasRelu (m := 100000) (k := 128) A0 A1 i := by
  subst hi
  rw [pay_apply, h0, h1]
  rfl

/-- The printed block maps over the 20 points: sums and output move together down the rows; the bias stays; nothing
    moves along the columns. -/
theorem idx_facts : ∀ t : Fin cfg3.N,
    win3_0.index t (0 : Fin 2) = win3_2.index t (0 : Fin 2) ∧ win3_0.index t (1 : Fin 2) = 0
    ∧ win3_1.index t (0 : Fin 1) = 0
    ∧ win3_2.index t (1 : Fin 2) = 0 ∧ win3_2.index t (0 : Fin 2) ≤ 19 :=
  (by decide +kernel : ∀ t : Fin grid3.N, _)

/-- Every one of the 20 row blocks is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of `biasRelu` of the arrays as the region finds them. -/
theorem flushed_eq (c : Dev nD) (t : Fin cfg3.N) :
    (dat3 V c).flushed 2 t = ((cfg3.win 2).blk t).view.read (Elt Ideal)
      (biasRelu (m := 100000) (k := 128) (V c main_v22) (V c main_arg5)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128) hz1]
  obtain ⟨e0, e1, e2, e3, e4⟩ := idx_facts t
  funext j
  obtain ⟨q, o, rfl⟩ : ∃ (q : Fin 5000) (o : Fin 128), j = ix2 q o := ⟨j 0, j 1, eq_ix2 j⟩
  have hq : q.val < 5000 := q.isLt
  refine point (V c main_v22) (V c main_arg5) _ _ _ q o
    ⟨win3_2.index t (0 : Fin 2) * 5000 + q.val, by omega⟩ ?_ ?_ ?_
  · funext ax; apply Fin.ext
    match ax with
    | ⟨0, _⟩ => show win3_2.index t (0 : Fin 2) * 5000 + 1 * q.val = win3_2.index t (0 : Fin 2) * 5000 + q.val; omega
    | ⟨1, _⟩ => show win3_2.index t (1 : Fin 2) * 128 + 1 * o.val = o.val; omega
  · show V c main_v22 (((cfg3.win 0).blk t).view.emb (ix2 q o)) = V c main_v22 _
    refine congrArg _ ?_
    funext ax; apply Fin.ext
    match ax with
    | ⟨0, _⟩ => show win3_0.index t (0 : Fin 2) * 5000 + 1 * q.val = win3_2.index t (0 : Fin 2) * 5000 + q.val; omega
    | ⟨1, _⟩ => show win3_0.index t (1 : Fin 2) * 128 + 1 * o.val = o.val; omega
  · show V c main_arg5 (((cfg3.win 1).blk t).view.emb (ix1 o)) = V c main_arg5 _
    refine congrArg _ ?_
    funext ax; apply Fin.ext
    match ax with
    | ⟨0, _⟩ => show win3_1.index t (0 : Fin 1) * 128 + 1 * o.val = o.val; omega

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v23).slice (win3_2.rect t)).set ↔ _
  rw [View.set_slice_whole, Rect.mem_set_unit]
  exact Iff.rfl

/-- Row `r` lies in block `r / 5000`: the blocks cover the array. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- After the region its output array is `biasRelu` of the sums and the bias the region found. -/
theorem final (c : Dev nD) :
    (dat3 V c).arrAt 2 cfg3.N = biasRelu (m := 100000) (k := 128) (V c main_v22) (V c main_arg5) :=
  (dat3 V c).arrAt_eq_of_cover 2 _ (fun t _ => flushed_eq V c t) cover

end Cert.KernelIdeal.Bias3

end
-- ==== Proof.Lin4.lean ====
/-
  Region 4 of the program: the transformed, scaled features of all nodes, as one array.

  The region visits the 100000 nodes in 20 blocks of 5000 rows. At block `t` it reads rows `5000·t … 5000·t + 4999` of
  the features and of the factors' column, the whole weight matrix, and writes back the block's rows of
  `(features · weights) · factor`. Each written entry is the entry of `linNorm` of the three whole arrays at the same
  node and feature, because an entry of a block is the entry of the array `5000·t` rows further down; and the 20
  blocks cover every row, since row `r` lies in block `r / 5000`. So after the region the output array is `linNorm` of
  the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Lin4

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block's stored value at row `q`, feature `o`: the row's product with the weights' column, times the row's factor. -/
theorem pay_apply (x0 : Vec Ideal S5000x128 .f32) (x1 : Vec Ideal S128x47 .f32) (x2 : Vec Ideal S5000x1 .f32)
    (q : Fin 5000) (o : Fin 47) :
    k4_pay1 x0 x1 x2 (ix2 q o) = (∑ c : Fin 128, x0 (ix2 q c) * x1 (ix2 c o)) * x2 (ix2 q (0 : Fin 1)) := by
  unfold k4_pay1
  rw [shapeCast_self]
  exact linBlock_apply _ rfl none _ _ _ x0 x1 x2 q o

/-- If the block's rows are the arrays' rows `a` (for the block's row `q`), the stored entry is the array's. -/
theorem point (A0 : S100000x128.Idx → EReal) (A1 : S128x47.Idx → EReal) (A2 : S100000x1.Idx → EReal)
    (x0 : Vec Ideal S5000x128 .f32) (x1 : Vec Ideal S128x47 .f32) (x2 : Vec Ideal S5000x1 .f32)
    (i : S100000x47.Idx) (q : Fin 5000) (o : Fin 47) (a : Fin 100000) (hi : i = ix2 a o)
    (h0 : ∀ c : Fin 128, x0 (ix2 q c) = A0 (ix2 a c))
    (h1 : ∀ c : Fin 128, x1 (ix2 c o) = A1 (ix2 c o))
    (h2 : x2 (ix2 q (0 : Fin 1)) = A2 (ix2 a (0 : Fin 1))) :
    k4_pay1 x0 x1 x2 (ix2 q o) = linNorm (m := 100000) (n := 128) (k := 47) A0 A1 A2 i := by
  subst hi
  rw [pay_apply, linNorm_ix2]
  unfold linNormAt
  rw [h2]
  exact congrArg (· * A2 (ix2 a (0 : Fin 1))) (Finset.sum_congr rfl fun c _ => by rw [h0 c, h1 c])

/-- The printed block maps over the 20 points: features, factors and output move together down the rows; the weights
    stay; nothing moves along the columns. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = win4_3.index t (0 : Fin 2) ∧ win4_2.index t (1 : Fin 2) = 0
    ∧ win4_3.index t (1 : Fin 2) = 0 ∧ win4_3.index t (0 : Fin 2) ≤ 19 :=
  (by decide +kernel : ∀ t : Fin grid4.N, _)

/-- Every one of the 20 row blocks is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

/-- What point `t` writes back is block `t` of `linNorm` of the arrays as the region finds them. -/
theorem flushed_eq (c : Dev nD) (t : Fin cfg4.N) :
    (dat4 V c).flushed 3 t = ((cfg4.win 3).blk t).view.read (Elt Ideal)
      (linNorm (m := 100000) (n := 128) (k := 47) (V c main_v23) (V c main_arg6) (V c main_arg1)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x47) hz,
    View.ld_unit_zero (S := S5000x1) hz]
  obtain ⟨e0, e1, e2, e3, e4, e5, e6, e7⟩ := idx_facts t
  funext j
  obtain ⟨q, o, rfl⟩ : ∃ (q : Fin 5000) (o : Fin 47), j = ix2 q o := ⟨j 0, j 1, eq_ix2 j⟩
  have hq : q.val < 5000 := q.isLt
  refine point (V c main_v23) (V c main_arg6) (V c main_arg1) _ _ _ _ q o
    ⟨win4_3.index t (0 : Fin 2) * 5000 + q.val, by omega⟩ ?_ ?_ ?_ ?_
  · funext ax; apply Fin.ext
    match ax with
    | ⟨0, _⟩ => show win4_3.index t (0 : Fin 2) * 5000 + 1 * q.val = win4_3.index t (0 : Fin 2) * 5000 + q.val; omega
    | ⟨1, _⟩ => show win4_3.index t (1 : Fin 2) * 47 + 1 * o.val = o.val; omega
  · intro cc
    show V c main_v23 (((cfg4.win 0).blk t).view.emb (ix2 q cc)) = V c main_v23 _
    refine congrArg _ ?_
    funext ax; apply Fin.ext
    match ax with
    | ⟨0, _⟩ => show win4_0.index t (0 : Fin 2) * 5000 + 1 * q.val = win4_3.index t (0 : Fin 2) * 5000 + q.val; omega
    | ⟨1, _⟩ => show win4_0.index t (1 : Fin 2) * 128 + 1 * cc.val = cc.val; omega
  · intro cc
    show V c main_arg6 (((cfg4.win 1).blk t).view.emb (ix2 cc o)) = V c main_arg6 _
    refine congrArg _ ?_
    funext ax; apply Fin.ext
    match ax with
    | ⟨0, _⟩ => show win4_1.index t (0 : Fin 2) * 128 + 1 * cc.val = cc.val; omega
    | ⟨1, _⟩ => show win4_1.index t (1 : Fin 2) * 47 + 1 * o.val = o.val; omega
  · show V c main_arg1 (((cfg4.win 2).blk t).view.emb (ix2 q (0 : Fin 1))) = V c main_arg1 _
    refine congrArg _ ?_
    funext ax; apply Fin.ext
    match ax with
    | ⟨0, _⟩ => show win4_2.index t (0 : Fin 2) * 5000 + 1 * q.val = win4_3.index t (0 : Fin 2) * 5000 + q.val; omega
    | ⟨1, _⟩ => show win4_2.index t (1 : Fin 2) * 1 + 1 * (0 : Fin 1).val = (0 : Fin 1).val; omega

/-- An index of the array is in point `t`'s block iff each coordinate is in the block's range on its axis. -/
theorem mem_blk (t : Fin cfg4.N) (i : S100000x47.Idx) :
    i ∈ ((cfg4.win 3).blk t).view.set ↔ ∀ a : Fin 2, win4_3.index t a * S5000x47.size a ≤ (i a).val
      ∧ (i a).val < win4_3.index t a * S5000x47.size a + S5000x47.size a := by
  show i ∈ ((View.whole main_v24).slice (win4_3.rect t)).set ↔ _
  rw [View.set_slice_whole, Rect.mem_set_unit]
  exact Iff.rfl

/-- Row `r` lies in block `r / 5000`: the blocks cover the array. -/
theorem cover (i : S100000x47.Idx) :
    ∃ t : Fin cfg4.N, (cfg4.win 3).flush t = true ∧ i ∈ ((cfg4.win 3).blk t).view.set := by
  have hi0 : (i 0).val < 100000 := (i 0).isLt
  have hi1 : (i 1).val < 47 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 47 ≤ (i 1).val ∧ (i 1).val < win4_3.index t (1 : Fin 2) * 47 + 47
    omega

/-- After the region its output array is `linNorm` of the features, weights and factors the region found. -/
theorem final (c : Dev nD) :
    (dat4 V c).arrAt 3 cfg4.N
      = linNorm (m := 100000) (n := 128) (k := 47) (V c main_v23) (V c main_arg6) (V c main_arg1) :=
  (dat4 V c).arrAt_eq_of_cover 3 _ (fun t _ => flushed_eq V c t) cover

end Cert.KernelIdeal.Lin4

end
-- ==== Proof.Bias5.lean ====
/-
  Region 5 of the program: the bias added to every node's summed messages, as one array.

  The region visits the 100000 nodes in 20 blocks of 5000 rows. At block `t` it reads rows `5000·t … 5000·t + 4999` of
  the sums and the whole bias vector, and writes back the block's rows of `sum + bias`. Each written entry is
  the entry of `biasAdd` of the two whole arrays at the same node and feature, because an entry of a block is the entry
  of the array `5000·t` rows further down; and the 20 blocks cover every row, since row `r` lies in block `r / 5000`.
  So after the region the output array is `biasAdd` of the arrays the region found.
-/
import proofs.«133543_j3470333575495_1_alg».proof.Proof.Gen.KernelIdeal.Frame
import proofs.«133543_j3470333575495_1_alg».proof.Proof.LibLayerForms

set_option maxRecDepth 16384

noncomputable section

namespace Cert.KernelIdeal.Bias5

open Cert.KernelIdeal Cert.KernelIdeal.Gen Idealize.ShloMosaic Idealize.ShloMosaic.TcCoe Idealize.SL.Sem
open Idealize.ShloMosaic.ValueIdx Cert.GcnForms
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The block's stored value at row `q`, feature `o`. -/
theorem pay_apply (x0 : Vec Ideal S5000x47 .f32) (x1 : Vec Ideal S47 .f32) (q : Fin 5000) (o : Fin 47) :
    k5_pay1 x0 x1 (ix2 q o) = x0 (ix2 q o) + x1 (ix1 o) := by
  unfold k5_pay1
  exact biasAddBlock_apply _ _ _ x0 x1 q o

/-- If the block's row `q` is the array's row `a`, the stored entry is the array's. -/
theorem point (A0 : S100000x47.Idx → EReal) (A1 : S47.Idx → EReal)
    (x0 : Vec Ideal S5000x47 .f32) (x1 : Vec Ideal S47 .f32)
    (i : S100000x47.Idx) (q : Fin 5000) (o : Fin 47) (a : Fin 100000) (hi : i = ix2 a o)
    (h0 : x0 (ix2 q o) = A0 (ix2 a o)) (h1 : x1 (ix1 o) = A1 (ix1 o)) :
    k5_pay1 x0 x1 (ix2 q o) = biasAdd (m := 100000) (k := 47) A0 A1 i := by
  subst hi
  rw [pay_apply, h0, h1]
  rfl

/-- The printed block maps over the 20 points: sums and output move together down the rows; the bias stays; nothing
    moves along the columns. -/
theorem idx_facts : ∀ t : Fin cfg5.N,
    win5_0.index t (0 : Fin 2) = win5_2.index t (0 : Fin 2) ∧ win5_0.index t (1 : Fin 2) = 0
    ∧ win5_1.index t (0 : Fin 1) = 0
    ∧ win5_2.index t (1 : Fin 2) = 0 ∧ win5_2.index t (0 : Fin 2) ≤ 19 :=
  (by decide +kernel : ∀ t : Fin grid5.N, _)

/-- Every one of the 20 row blocks is some point's. -/
theorem idx_onto : ∀ q0 : Fin 20, ∃ t : Fin cfg5.N, win5_2.index t = ![q0.val, 0] :=
  (by decide +kernel : ∀ q0 : Fin 20, ∃ t : Fin grid5.N, win5_2.index t = ![q0.val, 0])

/-- What point `t` writes back is block `t` of `biasAdd` of the arrays as the region finds them. -/
theorem flushed_eq (c : Dev nD) (t : Fin cfg5.N) :
    (dat5 V c).flushed 2 t = ((cfg5.win 2).blk t).view.read (Elt Ideal)
      (biasAdd (m := 100000) (k := 47) (V c main_v34) (V c main_arg7)) := by
  show (cfg5.win 2).cut (grid5.coords t) ((dat5 V c).after 2 t) = _
  rw [after5_2]
  unfold out5_2
  rw [View.canon_unit_zero hz]
  simp only [View.ld_unit_zero (S := S5000x47) hz, View.ld_unit_zero (S := S47) hz1]
  obtain ⟨e0, e1, e2, e3, e4⟩ := idx_facts t
  funext j
  obtain ⟨q, o, rfl⟩ : ∃ (q : Fin 5000) (o : Fin 47), j = ix2 q o := ⟨j 0, j 1, eq_ix2 j⟩
  have hq : q.val < 5000 := q.isLt
  refine point (V c main_v34) (V c main_arg7) _ _ _ q o
    ⟨win5_2.index t (0 : Fin 2) * 5000 + q.val, by omega⟩ ?_ ?_ ?_
  · funext ax; apply Fin.ext
    match ax with
    | ⟨0, _⟩ => show win5_2.index t (0 : Fin 2) * 5000 + 1 * q.val = win5_2.index t (0 : Fin 2) * 5000 + q.val; omega
    | ⟨1, _⟩ => show win5_2.index t (1 : Fin 2) * 47 + 1 * o.val = o.val; omega
  · show V c main_v34 (((cfg5.win 0).blk t).view.emb (ix2 q o)) = V c main_v34 _
    refine congrArg _ ?_
    funext ax; apply Fin.ext
    match ax with
    | ⟨0, _⟩ => show win5_0.index t (0 : Fin 2) * 5000 + 1 * q.val = win5_2.index t (0 : Fin 2) * 5000 + q.val; omega
    | ⟨1, _⟩ => show win5_0.index t (1 : Fin 2) * 47 + 1 * o.val = o.val; omega
  · show V c main_arg7 (((cfg5.win 1).blk t).view.emb (ix1 o)) = V c main_arg7 _
    refine congrArg _ ?_
    funext ax; apply Fin.ext
    match ax with
    | ⟨0, _⟩ => show win5_1.index t (0 : Fin 1) * 47 + 1 * o.val = o.val; omega

/-- An index of the array is in point `t`'s block iff each coordinate is in the block's range on its axis. -/
theorem mem_blk (t : Fin cfg5.N) (i : S100000x47.Idx) :
    i ∈ ((cfg5.win 2).blk t).view.set ↔ ∀ a : Fin 2, win5_2.index t a * S5000x47.size a ≤ (i a).val
      ∧ (i a).val < win5_2.index t a * S5000x47.size a + S5000x47.size a := by
  show i ∈ ((View.whole main_v35).slice (win5_2.rect t)).set ↔ _
  rw [View.set_slice_whole, Rect.mem_set_unit]
  exact Iff.rfl

/-- Row `r` lies in block `r / 5000`: the blocks cover the array. -/
theorem cover (i : S100000x47.Idx) :
    ∃ t : Fin cfg5.N, (cfg5.win 2).flush t = true ∧ i ∈ ((cfg5.win 2).blk t).view.set := by
  have hi0 : (i 0).val < 100000 := (i 0).isLt
  have hi1 : (i 1).val < 47 := (i 1).isLt
  obtain ⟨t, ht⟩ := idx_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 47 ≤ (i 1).val ∧ (i 1).val < win5_2.index t (1 : Fin 2) * 47 + 47
    omega

/-- After the region its output array is `biasAdd` of the sums and the bias the region found. -/
theorem final (c : Dev nD) :
    (dat5 V c).arrAt 2 cfg5.N = biasAdd (m := 100000) (k := 47) (V c main_v34) (V c main_arg7) :=
  (dat5 V c).arrAt_eq_of_cover 2 _ (fun t _ => flushed_eq V c t) cover

end Cert.KernelIdeal.Bias5

end
-- ==== Proof.Chain.lean ====
/-
  What the program leaves in its result array, as one function of the arguments.

  The buffer contents are followed boundary by boundary. A launch replaces its output array by the layer's entrywise
  function of the arrays it read (the six files before this one) and leaves every other buffer alone; a stretch of host
  operations writes only its own temporaries and its result, the messages summed along the edges (`agg`), and leaves
  the arguments alone. So at every boundary each argument still holds its launch contents, and the newest intermediate
  array is the composition, so far, of `linNorm`, `agg`, `biasRelu` / `biasAdd` over the arguments; at the last boundary
  that composition is the three-layer network, `gcn`.
-/
import proofs.«133543_j3470333575495_1_alg».proof.Proof.Gen.KernelIdeal.Frame
import proofs.«133543_j3470333575495_1_alg».proof.Proof.LibLayerForms
import proofs.«133543_j3470333575495_1_alg».proof.Proof.Lin0
import proofs.«133543_j3470333575495_1_alg».proof.Proof.Bias1
import proofs.«133543_j3470333575495_1_alg».proof.Proof.Lin2
import proofs.«133543_j3470333575495_1_alg».proof.Proof.Bias3
import proofs.«133543_j3470333575495_1_alg».proof.Proof.Lin4
import proofs.«133543_j3470333575495_1_alg».proof.Proof.Bias5

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GcnForms
open Idealize.ShloMosaic.StableHlo (after_cons after_nil)
open Idealize.ShloMosaic.Pipeline (Dat Cfg Window)

/-- Every node's incoming messages summed: row `src e` of `x` is fetched for every edge `e` (a negative index counted
    from the end, as array indexing does) and added into row `dst e` of a zero array. The two sides of the claim
    compute this with the same operations, so it is never opened. -/
def agg128 (x : (⟨S100000x128, .f32⟩ : BufTy).Contents (Elt Ideal))
    (src dst : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Every node's incoming messages summed: row `src e` of `x` is fetched for every edge `e` (a negative index counted
    from the end, as array indexing does) and added into row `dst e` of a zero array. The two sides of the claim
    compute this with the same operations, so it is never opened. -/
def agg47 (x : (⟨S100000x47, .f32⟩ : BufTy).Contents (Elt Ideal))
    (src dst : (⟨S1600000, .i32⟩ : BufTy).Contents (Elt Ideal)) : (⟨S100000x47, .f32⟩ : BufTy).Contents (Elt Ideal) :=
  Host.scatterAdd scatter_S100000x47_S1600000x1_S1600000x47_1_0_0_1
    (broadcastInDim S100000x47 ![] bcast_S_S100000x47 (constant (F := Ideal) S_ .f32 0x00000000#32))
    (broadcastInDim S1600000x1 ![0] bcast_S1600000_S1600000x1_0 dst)
    (Host.gather gather_S100000x47_S1600000x1_S1600000x47_1_0_n_n_0_1_147 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The three-layer network: transform and scale, sum along the edges, add the bias (and clip, in the two inner
    layers), three times over, the node factors and the edges shared by the layers. -/
def gcn (a0 : (⟨S100000x256, .f32⟩ : BufTy).Contents (Elt Ideal)) (a1 : (⟨S100000x1, .f32⟩ : BufTy).Contents (Elt Ideal))
    (a2 : (⟨S256x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 : (⟨S128x47, .f32⟩ : BufTy).Contents (Elt Ideal)) (a7 : (⟨S47, .f32⟩ : BufTy).Contents (Elt Ideal))
    (a8 a9 : (⟨S1600000, .i32⟩ : BufTy).Contents (Elt Ideal)) : (⟨S100000x47, .f32⟩ : BufTy).Contents (Elt Ideal) :=
  biasAdd (m := 100000) (k := 47)
    (agg47 (linNorm (m := 100000) (n := 128) (k := 47)
      (biasRelu (m := 100000) (k := 128)
        (agg128 (linNorm (m := 100000) (n := 128) (k := 128)
          (biasRelu (m := 100000) (k := 128)
            (agg128 (linNorm (m := 100000) (n := 256) (k := 128) a0 a2 a1) a8 a9) a3) a4 a1) a8 a9) a5) a6 a1) a8 a9) a7

variable (m : (ℓ : Loc nD τ sig) → Buf (Elt Ideal) ℓ) (ρ : Dev nD → PrngReg) (c : Dev nD)

/-- A stretch of host operations leaves a buffer none of them writes as it was. -/
local macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at every boundary -/

theorem keep1_1 : W1 m ρ c (Proc.devRef .tc main_arg1) = m ((c : Thread nD τ).loc main_arg1) :=
  ((W1_arr m ρ c 2).trans (((dat0 (V0 m ρ) c).arrAt_in 2 rfl _).trans (A_eq0 (V0 m ρ) c 2)))
theorem keep1_3 : W1 m ρ c (Proc.devRef .tc main_arg3) = m ((c : Thread nD τ).loc main_arg3) :=
  (W1_of_ne m ρ c main_arg3 (by decide))
theorem keep1_4 : W1 m ρ c (Proc.devRef .tc main_arg4) = m ((c : Thread nD τ).loc main_arg4) :=
  (W1_of_ne m ρ c main_arg4 (by decide))
theorem keep1_5 : W1 m ρ c (Proc.devRef .tc main_arg5) = m ((c : Thread nD τ).loc main_arg5) :=
  (W1_of_ne m ρ c main_arg5 (by decide))
theorem keep1_6 : W1 m ρ c (Proc.devRef .tc main_arg6) = m ((c : Thread nD τ).loc main_arg6) :=
  (W1_of_ne m ρ c main_arg6 (by decide))
theorem keep1_7 : W1 m ρ c (Proc.devRef .tc main_arg7) = m ((c : Thread nD τ).loc main_arg7) :=
  (W1_of_ne m ρ c main_arg7 (by decide))
theorem keep1_8 : W1 m ρ c (Proc.devRef .tc main_arg8) = m ((c : Thread nD τ).loc main_arg8) :=
  (W1_of_ne m ρ c main_arg8 (by decide))
theorem keep1_9 : W1 m ρ c (Proc.devRef .tc main_arg9) = m ((c : Thread nD τ).loc main_arg9) :=
  (W1_of_ne m ρ c main_arg9 (by decide))
theorem keep2_1 : W2 m ρ c (Proc.devRef .tc main_arg1) = m ((c : Thread nD τ).loc main_arg1) :=
  (by host_keep hostOps1 : W2 m ρ c (Proc.devRef .tc main_arg1) = W1 m ρ c (Proc.devRef .tc main_arg1)).trans (keep1_1 m ρ c)
theorem keep2_3 : W2 m ρ c (Proc.devRef .tc main_arg3) = m ((c : Thread nD τ).loc main_arg3) :=
  (by host_keep hostOps1 : W2 m ρ c (Proc.devRef .tc main_arg3) = W1 m ρ c (Proc.devRef .tc main_arg3)).trans (keep1_3 m ρ c)
theorem keep2_4 : W2 m ρ c (Proc.devRef .tc main_arg4) = m ((c : Thread nD τ).loc main_arg4) :=
  (by host_keep hostOps1 : W2 m ρ c (Proc.devRef .tc main_arg4) = W1 m ρ c (Proc.devRef .tc main_arg4)).trans (keep1_4 m ρ c)
theorem keep2_5 : W2 m ρ c (Proc.devRef .tc main_arg5) = m ((c : Thread nD τ).loc main_arg5) :=
  (by host_keep hostOps1 : W2 m ρ c (Proc.devRef .tc main_arg5) = W1 m ρ c (Proc.devRef .tc main_arg5)).trans (keep1_5 m ρ c)
theorem keep2_6 : W2 m ρ c (Proc.devRef .tc main_arg6) = m ((c : Thread nD τ).loc main_arg6) :=
  (by host_keep hostOps1 : W2 m ρ c (Proc.devRef .tc main_arg6) = W1 m ρ c (Proc.devRef .tc main_arg6)).trans (keep1_6 m ρ c)
theorem keep2_7 : W2 m ρ c (Proc.devRef .tc main_arg7) = m ((c : Thread nD τ).loc main_arg7) :=
  (by host_keep hostOps1 : W2 m ρ c (Proc.devRef .tc main_arg7) = W1 m ρ c (Proc.devRef .tc main_arg7)).trans (keep1_7 m ρ c)
theorem keep2_8 : W2 m ρ c (Proc.devRef .tc main_arg8) = m ((c : Thread nD τ).loc main_arg8) :=
  (by host_keep hostOps1 : W2 m ρ c (Proc.devRef .tc main_arg8) = W1 m ρ c (Proc.devRef .tc main_arg8)).trans (keep1_8 m ρ c)
theorem keep2_9 : W2 m ρ c (Proc.devRef .tc main_arg9) = m ((c : Thread nD τ).loc main_arg9) :=
  (by host_keep hostOps1 : W2 m ρ c (Proc.devRef .tc main_arg9) = W1 m ρ c (Proc.devRef .tc main_arg9)).trans (keep1_9 m ρ c)
theorem keep3_1 : W3 m ρ c (Proc.devRef .tc main_arg1) = m ((c : Thread nD τ).loc main_arg1) :=
  (W3_of_ne m ρ c main_arg1 (by decide)).trans (keep2_1 m ρ c)
theorem keep3_4 : W3 m ρ c (Proc.devRef .tc main_arg4) = m ((c : Thread nD τ).loc main_arg4) :=
  (W3_of_ne m ρ c main_arg4 (by decide)).trans (keep2_4 m ρ c)
theorem keep3_5 : W3 m ρ c (Proc.devRef .tc main_arg5) = m ((c : Thread nD τ).loc main_arg5) :=
  (W3_of_ne m ρ c main_arg5 (by decide)).trans (keep2_5 m ρ c)
theorem keep3_6 : W3 m ρ c (Proc.devRef .tc main_arg6) = m ((c : Thread nD τ).loc main_arg6) :=
  (W3_of_ne m ρ c main_arg6 (by decide)).trans (keep2_6 m ρ c)
theorem keep3_7 : W3 m ρ c (Proc.devRef .tc main_arg7) = m ((c : Thread nD τ).loc main_arg7) :=
  (W3_of_ne m ρ c main_arg7 (by decide)).trans (keep2_7 m ρ c)
theorem keep3_8 : W3 m ρ c (Proc.devRef .tc main_arg8) = m ((c : Thread nD τ).loc main_arg8) :=
  (W3_of_ne m ρ c main_arg8 (by decide)).trans (keep2_8 m ρ c)
theorem keep3_9 : W3 m ρ c (Proc.devRef .tc main_arg9) = m ((c : Thread nD τ).loc main_arg9) :=
  (W3_of_ne m ρ c main_arg9 (by decide)).trans (keep2_9 m ρ c)
theorem keep4_1 : W4 m ρ c (Proc.devRef .tc main_arg1) = m ((c : Thread nD τ).loc main_arg1) :=
  ((W4_arr m ρ c 2).trans (((dat2 (V3 m ρ) c).arrAt_in 2 rfl _).trans (A_eq2 (V3 m ρ) c 2))).trans (keep3_1 m ρ c)
theorem keep4_5 : W4 m ρ c (Proc.devRef .tc main_arg5) = m ((c : Thread nD τ).loc main_arg5) :=
  (W4_of_ne m ρ c main_arg5 (by decide)).trans (keep3_5 m ρ c)
theorem keep4_6 : W4 m ρ c (Proc.devRef .tc main_arg6) = m ((c : Thread nD τ).loc main_arg6) :=
  (W4_of_ne m ρ c main_arg6 (by decide)).trans (keep3_6 m ρ c)
theorem keep4_7 : W4 m ρ c (Proc.devRef .tc main_arg7) = m ((c : Thread nD τ).loc main_arg7) :=
  (W4_of_ne m ρ c main_arg7 (by decide)).trans (keep3_7 m ρ c)
theorem keep4_8 : W4 m ρ c (Proc.devRef .tc main_arg8) = m ((c : Thread nD τ).loc main_arg8) :=
  (W4_of_ne m ρ c main_arg8 (by decide)).trans (keep3_8 m ρ c)
theorem keep4_9 : W4 m ρ c (Proc.devRef .tc main_arg9) = m ((c : Thread nD τ).loc main_arg9) :=
  (W4_of_ne m ρ c main_arg9 (by decide)).trans (keep3_9 m ρ c)
theorem keep5_1 : W5 m ρ c (Proc.devRef .tc main_arg1) = m ((c : Thread nD τ).loc main_arg1) :=
  (by host_keep hostOps3 : W5 m ρ c (Proc.devRef .tc main_arg1) = W4 m ρ c (Proc.devRef .tc main_arg1)).trans (keep4_1 m ρ c)
theorem keep5_5 : W5 m ρ c (Proc.devRef .tc main_arg5) = m ((c : Thread nD τ).loc main_arg5) :=
  (by host_keep hostOps3 : W5 m ρ c (Proc.devRef .tc main_arg5) = W4 m ρ c (Proc.devRef .tc main_arg5)).trans (keep4_5 m ρ c)
theorem keep5_6 : W5 m ρ c (Proc.devRef .tc main_arg6) = m ((c : Thread nD τ).loc main_arg6) :=
  (by host_keep hostOps3 : W5 m ρ c (Proc.devRef .tc main_arg6) = W4 m ρ c (Proc.devRef .tc main_arg6)).trans (keep4_6 m ρ c)
theorem keep5_7 : W5 m ρ c (Proc.devRef .tc main_arg7) = m ((c : Thread nD τ).loc main_arg7) :=
  (by host_keep hostOps3 : W5 m ρ c (Proc.devRef .tc main_arg7) = W4 m ρ c (Proc.devRef .tc main_arg7)).trans (keep4_7 m ρ c)
theorem keep5_8 : W5 m ρ c (Proc.devRef .tc main_arg8) = m ((c : Thread nD τ).loc main_arg8) :=
  (by host_keep hostOps3 : W5 m ρ c (Proc.devRef .tc main_arg8) = W4 m ρ c (Proc.devRef .tc main_arg8)).trans (keep4_8 m ρ c)
theorem keep5_9 : W5 m ρ c (Proc.devRef .tc main_arg9) = m ((c : Thread nD τ).loc main_arg9) :=
  (by host_keep hostOps3 : W5 m ρ c (Proc.devRef .tc main_arg9) = W4 m ρ c (Proc.devRef .tc main_arg9)).trans (keep4_9 m ρ c)
theorem keep6_1 : W6 m ρ c (Proc.devRef .tc main_arg1) = m ((c : Thread nD τ).loc main_arg1) :=
  (W6_of_ne m ρ c main_arg1 (by decide)).trans (keep5_1 m ρ c)
theorem keep6_6 : W6 m ρ c (Proc.devRef .tc main_arg6) = m ((c : Thread nD τ).loc main_arg6) :=
  (W6_of_ne m ρ c main_arg6 (by decide)).trans (keep5_6 m ρ c)
theorem keep6_7 : W6 m ρ c (Proc.devRef .tc main_arg7) = m ((c : Thread nD τ).loc main_arg7) :=
  (W6_of_ne m ρ c main_arg7 (by decide)).trans (keep5_7 m ρ c)
theorem keep6_8 : W6 m ρ c (Proc.devRef .tc main_arg8) = m ((c : Thread nD τ).loc main_arg8) :=
  (W6_of_ne m ρ c main_arg8 (by decide)).trans (keep5_8 m ρ c)
theorem keep6_9 : W6 m ρ c (Proc.devRef .tc main_arg9) = m ((c : Thread nD τ).loc main_arg9) :=
  (W6_of_ne m ρ c main_arg9 (by decide)).trans (keep5_9 m ρ c)
theorem keep7_7 : W7 m ρ c (Proc.devRef .tc main_arg7) = m ((c : Thread nD τ).loc main_arg7) :=
  (W7_of_ne m ρ c main_arg7 (by decide)).trans (keep6_7 m ρ c)
theorem keep7_8 : W7 m ρ c (Proc.devRef .tc main_arg8) = m ((c : Thread nD τ).loc main_arg8) :=
  (W7_of_ne m ρ c main_arg8 (by decide)).trans (keep6_8 m ρ c)
theorem keep7_9 : W7 m ρ c (Proc.devRef .tc main_arg9) = m ((c : Thread nD τ).loc main_arg9) :=
  (W7_of_ne m ρ c main_arg9 (by decide)).trans (keep6_9 m ρ c)
theorem keep8_7 : W8 m ρ c (Proc.devRef .tc main_arg7) = m ((c : Thread nD τ).loc main_arg7) :=
  (by host_keep hostOps5 : W8 m ρ c (Proc.devRef .tc main_arg7) = W7 m ρ c (Proc.devRef .tc main_arg7)).trans (keep7_7 m ρ c)

/-! ## The newest intermediate array at every boundary -/

theorem at1 : (W1 m ρ c (Proc.devRef .tc main_v0)) = (linNorm (m := 100000) (n := 256) (k := 128) (m ((c : Thread nD τ).loc main_arg0)) (m ((c : Thread nD τ).loc main_arg2)) (m ((c : Thread nD τ).loc main_arg1))) :=
  (W1_arr m ρ c 3).trans (Lin0.final (V0 m ρ) c)

theorem host2 : (W2 m ρ c (Proc.devRef .tc main_v10)) = agg128 (W1 m ρ c (Proc.devRef .tc main_v0)) (W1 m ρ c (Proc.devRef .tc main_arg8)) (W1 m ρ c (Proc.devRef .tc main_arg9)) := by
  show StableHlo.after hostOps1 (W1 m ρ c) (Proc.devRef .tc main_v10) = _
  after_results
  rfl

theorem at2 : (W2 m ρ c (Proc.devRef .tc main_v10)) = (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) := by
  rw [host2, at1, keep1_8, keep1_9]

theorem at3 : (W3 m ρ c (Proc.devRef .tc main_v11)) = (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) :=
  ((W3_arr m ρ c 2).trans (Bias1.final (V2 m ρ) c)).trans
    (congrArg₂ (biasRelu (m := 100000) (k := 128)) (at2 m ρ c) (keep2_3 m ρ c))

theorem at4 : (W4 m ρ c (Proc.devRef .tc main_v12)) = (linNorm (m := 100000) (n := 128) (k := 128) (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) (m ((c : Thread nD τ).loc main_arg4)) (m ((c : Thread nD τ).loc main_arg1))) :=
  ((W4_arr m ρ c 3).trans (Lin2.final (V3 m ρ) c)).trans
    (by rw [show V3 m ρ c main_v11 = _ from at3 m ρ c, show V3 m ρ c main_arg4 = _ from keep3_4 m ρ c,
      show V3 m ρ c main_arg1 = _ from keep3_1 m ρ c])

theorem host5 : (W5 m ρ c (Proc.devRef .tc main_v22)) = agg128 (W4 m ρ c (Proc.devRef .tc main_v12)) (W4 m ρ c (Proc.devRef .tc main_arg8)) (W4 m ρ c (Proc.devRef .tc main_arg9)) := by
  show StableHlo.after hostOps3 (W4 m ρ c) (Proc.devRef .tc main_v22) = _
  after_results
  rfl

theorem at5 : (W5 m ρ c (Proc.devRef .tc main_v22)) = (agg128 (linNorm (m := 100000) (n := 128) (k := 128) (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) (m ((c : Thread nD τ).loc main_arg4)) (m ((c : Thread nD τ).loc main_arg1))) (m ((c : Thread nD τ).loc main_arg8)) (m ((c : Thread nD τ).loc main_arg9))) := by
  rw [host5, at4, keep4_8, keep4_9]

theorem at6 : (W6 m ρ c (Proc.devRef .tc main_v23)) = (biasRelu (m := 100000) (k := 128) (agg128 (linNorm (m := 100000) (n := 128) (k := 128) (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) (m ((c : Thread nD τ).loc main_arg4)) (m ((c : Thread nD τ).loc main_arg1))) (m ((c : Thread nD τ).loc main_arg8)) (m ((c : Thread nD τ).loc main_arg9))) (m ((c : Thread nD τ).loc main_arg5))) :=
  ((W6_arr m ρ c 2).trans (Bias3.final (V5 m ρ) c)).trans
    (congrArg₂ (biasRelu (m := 100000) (k := 128)) (at5 m ρ c) (keep5_5 m ρ c))

theorem at7 : (W7 m ρ c (Proc.devRef .tc main_v24)) = (linNorm (m := 100000) (n := 128) (k := 47) (biasRelu (m := 100000) (k := 128) (agg128 (linNorm (m := 100000) (n := 128) (k := 128) (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) (m ((c : Thread nD τ).loc main_arg4)) (m ((c : Thread nD τ).loc main_arg1))) (m ((c : Thread nD τ).loc main_arg8)) (m ((c : Thread nD τ).loc main_arg9))) (m ((c : Thread nD τ).loc main_arg5))) (m ((c : Thread nD τ).loc main_arg6)) (m ((c : Thread nD τ).loc main_arg1))) :=
  ((W7_arr m ρ c 3).trans (Lin4.final (V6 m ρ) c)).trans
    (by rw [show V6 m ρ c main_v23 = _ from at6 m ρ c, show V6 m ρ c main_arg6 = _ from keep6_6 m ρ c,
      show V6 m ρ c main_arg1 = _ from keep6_1 m ρ c])

theorem host8 : (W8 m ρ c (Proc.devRef .tc main_v34)) = agg47 (W7 m ρ c (Proc.devRef .tc main_v24)) (W7 m ρ c (Proc.devRef .tc main_arg8)) (W7 m ρ c (Proc.devRef .tc main_arg9)) := by
  show StableHlo.after hostOps5 (W7 m ρ c) (Proc.devRef .tc main_v34) = _
  after_results
  rfl

theorem at8 : (W8 m ρ c (Proc.devRef .tc main_v34)) = (agg47 (linNorm (m := 100000) (n := 128) (k := 47) (biasRelu (m := 100000) (k := 128) (agg128 (linNorm (m := 100000) (n := 128) (k := 128) (biasRelu (m := 100000) (k := 128) (agg128 (linNorm (m := 100000) (n := 256) (k := 128) (m ((c : Thread nD τ).loc main_arg0)) (m ((c : Thread nD τ).loc main_arg2)) (m ((c : Thread nD τ).loc main_arg1))) (m ((c : Thread nD τ).loc main_arg8)) (m ((c : Thread nD τ).loc main_arg9))) (m ((c : Thread nD τ).loc main_arg3))) (m ((c : Thread nD τ).loc main_arg4)) (m ((c : Thread nD τ).loc main_arg1))) (m ((c : Thread nD τ).loc main_arg8)) (m ((c : Thread nD τ).loc main_arg9))) (m ((c : Thread nD τ).loc main_arg5))) (m ((c : Thread nD τ).loc main_arg6)) (m ((c : Thread nD τ).loc main_arg1))) (m ((c : Thread nD τ).loc main_arg8)) (m ((c : Thread nD τ).loc main_arg9))) := by
  rw [host8, at7, keep7_8, keep7_9]

/-- The result array at the last boundary: the three-layer network of the arguments. -/
theorem at9 : (W9 m ρ c (Proc.devRef .tc main_v35)) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((W9_arr m ρ c 2).trans (Bias5.final (V8 m ρ) c)).trans
    (congrArg₂ (biasAdd (m := 100000) (k := 47)) (at8 m ρ c) (keep8_7 m ρ c))

end Cert.KernelIdeal.Whole

end
-- ==== Proof.RefForms.lean ====
/-
  The reference's result is the same three-layer network.

  The reference computes each layer on whole arrays: a contraction of the features with the weights, times the node
  factors broadcast along the rows; the messages summed along the edges; the bias broadcast to every row and added,
  and in the two inner layers the maximum with a zero array. Read entry by entry the first is `linNorm`, the last
  `biasRelu` or `biasAdd` (the layer forms); the summing along the edges is, operation for operation, the kernel's
  own host stretch (`agg`). Replacing the six whole-array pieces by their entrywise names turns the reference's
  term into `gcn` of the arguments; no law of arithmetic is used, so no entry needs to be finite.
-/
import proofs.«133543_j3470333575495_1_alg».proof.Proof.Gen.ReferenceIdeal.Run
import proofs.«133543_j3470333575495_1_alg».proof.Proof.LibLayerForms
import proofs.«133543_j3470333575495_1_alg».proof.Proof.Chain

set_option maxRecDepth 16384

noncomputable section

namespace Cert.ReferenceIdeal.RefValue

open Cert.ReferenceIdeal Cert.ReferenceIdeal.Gen Idealize.ShloMosaic Idealize.ShloMosaic.ValueIdx Cert.GcnForms

theorem lin0_eq (h : FVec Ideal S100000x256 .f32) (W : FVec Ideal S256x128 .f32) (nm : FVec Ideal S100000x1 .f32) :
    mulf (Host.dotGeneral dot_S100000x256_S256x128_S100000x128_1_0_0_1_n_n none h W)
        (broadcastInDim S100000x128 ![0, 1] bcast_S100000x1_S100000x128_0_1 nm)
      = linNorm (m := 100000) (n := 256) (k := 128) h W nm :=
  linHost_eq _ rfl none _ rfl _ h W nm

theorem lin1_eq (h : FVec Ideal S100000x128 .f32) (W : FVec Ideal S128x128 .f32) (nm : FVec Ideal S100000x1 .f32) :
    mulf (Host.dotGeneral dot_S100000x128_S128x128_S100000x128_1_0_0_1_n_n none h W)
        (broadcastInDim S100000x128 ![0, 1] bcast_S100000x1_S100000x128_0_1 nm)
      = linNorm (m := 100000) (n := 128) (k := 128) h W nm :=
  linHost_eq _ rfl none _ rfl _ h W nm

theorem lin2_eq (h : FVec Ideal S100000x128 .f32) (W : FVec Ideal S128x47 .f32) (nm : FVec Ideal S100000x1 .f32) :
    mulf (Host.dotGeneral dot_S100000x128_S128x47_S100000x47_1_0_0_1_n_n none h W)
        (broadcastInDim S100000x47 ![0, 1] bcast_S100000x1_S100000x47_0_1 nm)
      = linNorm (m := 100000) (n := 128) (k := 47) h W nm :=
  linHost_eq _ rfl none _ rfl _ h W nm

theorem relu128_eq (x : FVec Ideal S100000x128 .f32) (b : FVec Ideal S128 .f32) :
    maximumf (addf x (broadcastInDim S100000x128 ![0, 1] bcast_S1x128_S100000x128_0_1
          (broadcastInDim S1x128 ![1] bcast_S128_S1x128_1 b)))
        (broadcastInDim S100000x128 ![] bcast_S_S100000x128 (constant (F := Ideal) S_ .f32 0x00000000#32))
      = biasRelu (m := 100000) (k := 128) x b :=
  biasReluHost_eq _ rfl _ _ rfl _ _ _ x b

theorem add47_eq (x : FVec Ideal S100000x47 .f32) (b : FVec Ideal S47 .f32) :
    addf x (broadcastInDim S100000x47 ![0, 1] bcast_S1x47_S100000x47_0_1
          (broadcastInDim S1x47 ![1] bcast_S47_S1x47_1 b))
      = biasAdd (m := 100000) (k := 47) x b :=
  biasAddHost_eq _ rfl _ _ rfl _ x b

/-- The reference's composed term, over any arguments, is the network. After the six pieces are renamed, what is
    left on the two sides is the same summing along the edges, operation for operation. -/
theorem result_eq (a0 : FVec Ideal S100000x256 .f32) (a1 : FVec Ideal S100000x1 .f32) (a2 : FVec Ideal S256x128 .f32)
    (a3 : FVec Ideal S128 .f32) (a4 : FVec Ideal S128x128 .f32) (a5 : FVec Ideal S128 .f32)
    (a6 : FVec Ideal S128x47 .f32) (a7 : FVec Ideal S47 .f32) (a8 a9 : IVec S1600000 32) :
    addf (Host.scatterAdd scatter_S100000x47_S1600000x1_S1600000x47_1_0_0_1 (broadcastInDim S100000x47 ![] bcast_S_S100000x47 (constant (F := Ideal) S_ .f32 0x00000000#32)) (broadcastInDim S1600000x1 ![0] bcast_S1600000_S1600000x1_0 a9) (Host.gather gather_S100000x47_S1600000x1_S1600000x47_1_0_n_n_0_1_147 (mulf (Host.dotGeneral dot_S100000x128_S128x47_S100000x47_1_0_0_1_n_n none (maximumf (addf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a9) (Host.gather gather_S100000x128_S1600000x1_S1600000x128_1_0_n_n_0_1_1128 (mulf (Host.dotGeneral dot_S100000x128_S128x128_S100000x128_1_0_0_1_n_n none (maximumf (addf (Host.scatterAdd scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a9) (Host.gather gather_S100000x128_S1600000x1_S1600000x128_1_0_n_n_0_1_1128 (mulf (Host.dotGeneral dot_S100000x256_S256x128_S100000x128_1_0_0_1_n_n none a0 a2) (broadcastInDim S100000x128 ![0, 1] bcast_S100000x1_S100000x128_0_1 a1)) (broadcastInDim S1600000x1 ![0] bcast_S1600000_S1600000x1_0 (select (cmpi .slt a8 (broadcastInDim S1600000 ![] bcast_S_S1600000 (constantI S_ 32 0#32))) (addi a8 (broadcastInDim S1600000 ![] bcast_S_S1600000 (constantI S_ 32 100000#32))) a8)))) (broadcastInDim S100000x128 ![0, 1] bcast_S1x128_S100000x128_0_1 (broadcastInDim S1x128 ![1] bcast_S128_S1x128_1 a3))) (broadcastInDim S100000x128 ![] bcast_S_S100000x128 (constant (F := Ideal) S_ .f32 0x00000000#32))) a4) (broadcastInDim S100000x128 ![0, 1] bcast_S100000x1_S100000x128_0_1 a1)) (broadcastInDim S1600000x1 ![0] bcast_S1600000_S1600000x1_0 (select (cmpi .slt a8 (broadcastInDim S1600000 ![] bcast_S_S1600000 (constantI S_ 32 0#32))) (addi a8 (broadcastInDim S1600000 ![] bcast_S_S1600000 (constantI S_ 32 100000#32))) a8)))) (broadcastInDim S100000x128 ![0, 1] bcast_S1x128_S100000x128_0_1 (broadcastInDim S1x128 ![1] bcast_S128_S1x128_1 a5))) (broadcastInDim S100000x128 ![] bcast_S_S100000x128 (constant (F := Ideal) S_ .f32 0x00000000#32))) a6) (broadcastInDim S100000x47 ![0, 1] bcast_S100000x1_S100000x47_0_1 a1)) (broadcastInDim S1600000x1 ![0] bcast_S1600000_S1600000x1_0 (select (cmpi .slt a8 (broadcastInDim S1600000 ![] bcast_S_S1600000 (constantI S_ 32 0#32))) (addi a8 (broadcastInDim S1600000 ![] bcast_S_S1600000 (constantI S_ 32 100000#32))) a8)))) (broadcastInDim S100000x47 ![0, 1] bcast_S1x47_S100000x47_0_1 (broadcastInDim S1x47 ![1] bcast_S47_S1x47_1 a7))
      = Cert.KernelIdeal.Whole.gcn a0 a1 a2 a3 a4 a5 a6 a7 a8 a9 := by
  rw [lin0_eq, relu128_eq, lin1_eq, relu128_eq, lin2_eq, add47_eq]
  rfl

end Cert.ReferenceIdeal.RefValue

end
-- ==== Proof.lean ====
/-
  A three-layer graph convolution on 100000 nodes and 1600000 edges, as six kernel launches among host operations,
  against the same network written with whole-array operations.

  Every layer transforms the node features by a weight matrix and scales each node's row by the node's factor
  (a launch, 20 blocks of 5000 rows), sums the rows along the edges (host operations: a gather by source, a
  scatter-add by destination, the same on both sides), and adds a bias row, clipping at zero in the two inner layers
  (a second launch, again by blocks of rows). Over the extended reals the narrowing of the product's operands is the
  identity and a product into a zero accumulator is the plain contraction, so block by block the launches compute the
  entries the whole-array operations compute, and the blocks cover all rows. The two programs therefore end with the
  same function of the arguments (`gcn`), entry by entry; no rearrangement of sums or products is involved, and the
  precondition that the inputs are finite is not used for the values. The frames of the two kernel programs are
  the generated ones; the reference's frame is its run with the result dropped; the idealization rewrote nothing, so
  what it has to preserve is trivially true.
-/
import proofs.«133543_j3470333575495_1_alg».proof.Defs
import proofs.«133543_j3470333575495_1_alg».proof.Proof.Gen.Kernel
import proofs.«133543_j3470333575495_1_alg».proof.Proof.Gen.Kernel.Skeleton
import proofs.«133543_j3470333575495_1_alg».proof.Proof.Gen.Kernel.Launch
import proofs.«133543_j3470333575495_1_alg».proof.Proof.Gen.Kernel.Points
import proofs.«133543_j3470333575495_1_alg».proof.Proof.Gen.Kernel.Frame
import proofs.«133543_j3470333575495_1_alg».proof.Proof.Gen.KernelIdeal
import proofs.«133543_j3470333575495_1_alg».proof.Proof.Gen.KernelIdeal.Skeleton
import proofs.«133543_j3470333575495_1_alg».proof.Proof.Gen.KernelIdeal.Launch
import proofs.«133543_j3470333575495_1_alg».proof.Proof.Gen.KernelIdeal.Points
import proofs.«133543_j3470333575495_1_alg».proof.Proof.Gen.KernelIdeal.Frame
import proofs.«133543_j3470333575495_1_alg».proof.Proof.Gen.ReferenceIdeal
import proofs.«133543_j3470333575495_1_alg».proof.Proof.Gen.ReferenceIdeal.Run
import proofs.«133543_j3470333575495_1_alg».proof.Proof.Gen.Pre_finite_inputs
import proofs.«133543_j3470333575495_1_alg».proof.Proof.ResultRun
import proofs.«133543_j3470333575495_1_alg».proof.Proof.Chain
import proofs.«133543_j3470333575495_1_alg».proof.Proof.RefForms
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `gcn` of the arguments: the kernel's by following its buffers through the
    six launches, the reference's by renaming its whole-array pieces; the arguments agree. -/
theorem algebraic : Cert.algebraic_KernelIdeal_ReferenceIdeal := by
  intro m ρ m' ρ' _ hagree
  refine ⟨fun c => Cert.KernelIdeal.Whole.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.at9 m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact Cert.ReferenceIdeal.RefValue.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
